-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3145728 : Shape := ⟨2, ![8, 3145728]⟩
abbrev S4x1038240 : Shape := ⟨2, ![4, 1038240]⟩
abbrev S_ : Shape := ⟨0, ![]⟩

class Facts : Prop where
  bcast_S_S8x3145728 : S_.BroadcastsInDim S8x3145728 (![] : Fin 0 → Fin S8x3145728.rank)
  reducesTo_S8x3145728_S_d0_1 : S8x3145728.ReducesTo [0, 1] S_
  h_S_ : 0 < S_.numel
  bcast_S_S4x1038240 : S_.BroadcastsInDim S4x1038240 (![] : Fin 0 → Fin S4x1038240.rank)
  reducesTo_S4x1038240_S_d0_1 : S4x1038240.ReducesTo [0, 1] S_

variable [Facts]

def fn {F : FTy → Type} [FloatOps F] (main_arg0 : FVec F S8x3145728 .f32) (main_arg1 : FVec F S4x1038240 .f32) (main_arg2 : IVec S4x1038240 32) : IVec S_ 1 :=
  let main_v0 : FVec F S8x3145728 .f32 := Host.absf main_arg0
  let main_cst : FVec F S_ .f32 := constant S_ .f32 0x7F800000#32
  let main_v1 : FVec F S8x3145728 .f32 := broadcastInDim S8x3145728 ![] bcast_S_S8x3145728 main_cst
  let main_v2 : IVec S8x3145728 1 := cmpf .olt main_v0 main_v1
  let main_c : IVec S_ 1 := constantI S_ 1 1#1
  let main_v3 : IVec S_ 1 := (fun x v => Host.reduce IntOp.andi x v reducesTo_S8x3145728_S_d0_1 h_S_) main_v2 main_c
  let main_v4 : FVec F S4x1038240 .f32 := Host.absf main_arg1
  let main_cst_0 : FVec F S_ .f32 := constant S_ .f32 0x7F800000#32
  let main_v5 : FVec F S4x1038240 .f32 := broadcastInDim S4x1038240 ![] bcast_S_S4x1038240 main_cst_0
  let main_v6 : IVec S4x1038240 1 := cmpf .olt main_v4 main_v5
  let main_c_1 : IVec S_ 1 := constantI S_ 1 1#1
  let main_v7 : IVec S_ 1 := (fun x v => Host.reduce IntOp.andi x v reducesTo_S4x1038240_S_d0_1 h_S_) main_v6 main_c_1
  let main_v8 : IVec S_ 1 := andi main_v3 main_v7
  main_v8
-- ==== Kernel.lean ====
abbrev S8x3145728 : Shape := ⟨2, ![8, 3145728]⟩
abbrev S4x1038240 : Shape := ⟨2, ![4, 1038240]⟩
abbrev S_ : Shape := ⟨0, ![]⟩
abbrev S4x1048576 : Shape := ⟨2, ![4, 1048576]⟩
abbrev S4194304 : Shape := ⟨1, ![4194304]⟩
abbrev S4194304x1 : Shape := ⟨2, ![4194304, 1]⟩
abbrev S1 : Shape := ⟨1, ![1]⟩
abbrev S1x1 : Shape := ⟨2, ![1, 1]⟩
abbrev S8x4194304 : Shape := ⟨2, ![8, 4194304]⟩
abbrev S8x4x1048576 : Shape := ⟨3, ![8, 4, 1048576]⟩
abbrev S8x1048576 : Shape := ⟨2, ![8, 1048576]⟩
abbrev S8x4x32768 : Shape := ⟨3, ![8, 4, 32768]⟩
abbrev S4x32768 : Shape := ⟨2, ![4, 32768]⟩
abbrev S8x32768 : Shape := ⟨2, ![8, 32768]⟩
abbrev S1x4x32768 : Shape := ⟨3, ![1, 4, 32768]⟩
abbrev S8x1038240 : Shape := ⟨2, ![8, 1038240]⟩

abbrev nBuf : Space → Nat
  | .hbm => 36
  | .vmem => 6
  | .smem => 0
  | _ => 0

abbrev bufTy : (tb : Table) → Fin (tcTables nBuf tb) → BufTy
  | .hbm, ⟨0, _⟩ => ⟨S8x3145728, .f32⟩
  | .hbm, ⟨1, _⟩ => ⟨S4x1038240, .f32⟩
  | .hbm, ⟨2, _⟩ => ⟨S4x1038240, .i32⟩
  | .hbm, ⟨3, _⟩ => ⟨S_, .i32⟩
  | .hbm, ⟨4, _⟩ => ⟨S_, .i32⟩
  | .hbm, ⟨5, _⟩ => ⟨S4x1048576, .i32⟩
  | .hbm, ⟨6, _⟩ => ⟨S_, .f32⟩
  | .hbm, ⟨7, _⟩ => ⟨S_, .f32⟩
  | .hbm, ⟨8, _⟩ => ⟨S4x1048576, .f32⟩
  | .hbm, ⟨9, _⟩ => ⟨S4194304, .i32⟩
  | .hbm, ⟨10, _⟩ => ⟨S_, .i32⟩
  | .hbm, ⟨11, _⟩ => ⟨S4194304, .i32⟩
  | .hbm, ⟨12, _⟩ => ⟨S4194304, .i1⟩
  | .hbm, ⟨13, _⟩ => ⟨S_, .i32⟩
  | .hbm, ⟨14, _⟩ => ⟨S4194304, .i32⟩
  | .hbm, ⟨15, _⟩ => ⟨S4194304, .i32⟩
  | .hbm, ⟨16, _⟩ => ⟨S4194304, .i32⟩
  | .hbm, ⟨17, _⟩ => ⟨S4194304x1, .i32⟩
  | .hbm, ⟨18, _⟩ => ⟨S1, .i32⟩
  | .hbm, ⟨19, _⟩ => ⟨S_, .i32⟩
  | .hbm, ⟨20, _⟩ => ⟨S4194304x1, .i32⟩
  | .hbm, ⟨21, _⟩ => ⟨S4194304x1, .i1⟩
  | .hbm, ⟨22, _⟩ => ⟨S1x1, .i32⟩
  | .hbm, ⟨23, _⟩ => ⟨S4194304x1, .i32⟩
  | .hbm, ⟨24, _⟩ => ⟨S4194304x1, .i1⟩
  | .hbm, ⟨25, _⟩ => ⟨S4194304x1, .i1⟩
  | .hbm, ⟨26, _⟩ => ⟨S_, .i1⟩
  | .hbm, ⟨27, _⟩ => ⟨S4194304, .i1⟩
  | .hbm, ⟨28, _⟩ => ⟨S8x4194304, .f32⟩
  | .hbm, ⟨29, _⟩ => ⟨S8x4194304, .i1⟩
  | .hbm, ⟨30, _⟩ => ⟨S_, .f32⟩
  | .hbm, ⟨31, _⟩ => ⟨S8x4194304, .f32⟩
  | .hbm, ⟨32, _⟩ => ⟨S8x4194304, .f32⟩
  | .hbm, ⟨33, _⟩ => ⟨S8x4x1048576, .f32⟩
  | .hbm, ⟨34, _⟩ => ⟨S8x1048576, .f32⟩
  | .hbm, ⟨35, _⟩ => ⟨S8x1038240, .f32⟩
  | .local _ .vmem, ⟨0, _⟩ => ⟨S8x4x32768, .f32⟩
  | .local _ .vmem, ⟨1, _⟩ => ⟨S8x4x32768, .f32⟩
  | .local _ .vmem, ⟨2, _⟩ => ⟨S4x32768, .f32⟩
  | .local _ .vmem, ⟨3, _⟩ => ⟨S4x32768, .f32⟩
  | .local _ .vmem, ⟨4, _⟩ => ⟨S8x32768, .f32⟩
  | .local _ .vmem, ⟨5, _⟩ => ⟨S8x32768, .f32⟩
  | _, _ => ⟨S8x3145728, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_call2_c : Ref sig .tc := ⟨.hbm, 10, rfl⟩
abbrev main_call2_v0 : Ref sig .tc := ⟨.hbm, 11, rfl⟩
abbrev main_call2_v1 : Ref sig .tc := ⟨.hbm, 12, rfl⟩
abbrev main_call2_c_0 : Ref sig .tc := ⟨.hbm, 13, rfl⟩
abbrev main_call2_v2 : Ref sig .tc := ⟨.hbm, 14, rfl⟩
abbrev main_call2_v3 : Ref sig .tc := ⟨.hbm, 15, rfl⟩
abbrev main_call2_v4 : Ref sig .tc := ⟨.hbm, 16, rfl⟩
abbrev main_call2_v5 : Ref sig .tc := ⟨.hbm, 17, rfl⟩
abbrev main_call2_c_1 : Ref sig .tc := ⟨.hbm, 18, rfl⟩
abbrev main_call2_c_2 : Ref sig .tc := ⟨.hbm, 19, rfl⟩
abbrev main_call2_v6 : Ref sig .tc := ⟨.hbm, 20, rfl⟩
abbrev main_call2_v7 : Ref sig .tc := ⟨.hbm, 21, rfl⟩
abbrev main_call2_v8 : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_3 : Ref sig .tc := ⟨.hbm, 26, rfl⟩
abbrev main_call2_v12 : Ref sig .tc := ⟨.hbm, 27, rfl⟩
abbrev main_call2_v13 : Ref sig .tc := ⟨.hbm, 28, rfl⟩
abbrev main_call2_v14 : Ref sig .tc := ⟨.hbm, 29, rfl⟩
abbrev main_call2_cst : Ref sig .tc := ⟨.hbm, 30, rfl⟩
abbrev main_call2_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x1038240_S4x1048576_000_0103360 : S4x1038240.Pads (![0, 0] : Fin 2 → Nat) ![0, 10336] ![0, 0] S4x1048576
  h_S_ : 0 < S_.numel
  shapeCasts_S4x1048576_S4194304 : S4x1048576.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  bcast_S4194304_S8x4194304_1 : S4194304.BroadcastsInDim S8x4194304 (![1] : Fin 1 → Fin S8x4194304.rank)
  bcast_S_S8x4194304 : S_.BroadcastsInDim S8x4194304 (![] : Fin 0 → Fin S8x4194304.rank)
  shapeCasts_S8x4194304_S8x4x1048576 : S8x4194304.ShapeCasts S8x4x1048576
  inb_S8x4x32768_S8x4x32768_0_0_0 : ∀ a, (![0, 0, 0] : Fin 3 → Nat) a + S8x4x32768.size a ≤ S8x4x32768.size a
  h_S8x4x32768 : 0 < S8x4x32768.numel
  shapeCasts_S8x4x32768_S8x4x32768 : S8x4x32768.ShapeCasts S8x4x32768
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  shapeCasts_S4x32768_S1x4x32768 : S4x32768.ShapeCasts S1x4x32768
  broadcasts_S1x4x32768_S8x4x32768 : S1x4x32768.Broadcasts S8x4x32768
  reduces_S8x4x32768_S8x32768 : S8x4x32768.Reduces [1] S8x32768
  inb_S8x32768_S8x32768_0_0 : ∀ a, (![0, 0] : Fin 2 → Nat) a + S8x32768.size a ≤ S8x32768.size a
  h_S8x32768 : 0 < S8x32768.numel
  slices_S8x1048576_S8x1038240_0_0 : S8x1048576.Slices ![0, 0] S8x1038240
  gather_S8x3145728_S4194304x1_S8x4194304_0_1_n_n_1_1_81_wf : GatherDims.WF S8x3145728 S4194304x1 S8x4194304 [0] [1] [] [1] [] 1 ![8, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x32768.size a ≤ S8x4x1048576.size a
  hwx0_0 : ∀ i : grid0.Coords, EltTy.bits .f32 = 32 ∨ (Rect.block (s := S8x4x1048576) S8x4x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32768.size a ≤ S4x1048576.size a
  hwx0_1 : ∀ i : grid0.Coords, EltTy.bits .f32 = 32 ∨ (Rect.block (s := S4x1048576) S4x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32768.size a ≤ S8x1048576.size a
  hwx0_2 : ∀ i : grid0.Coords, EltTy.bits .f32 = 32 ∨ (Rect.block (s := S8x1048576) S8x32768.size (cc0_transform_2 i) (hinb0_2 i)).WholeWords (EltTy.packing .f32)

variable [Facts₀]

def gather_S8x3145728_S4194304x1_S8x4194304_0_1_n_n_1_1_81 : GatherDims S8x3145728 S4194304x1 S8x4194304 where
  offsetDims := [0]
  collapsedSliceDims := [1]
  operandBatchingDims := []
  startIndicesBatchingDims := []
  startIndexMap := [1]
  indexVectorDim := 1
  sliceSizes := ![8, 1]
  wf := gather_S8x3145728_S4194304x1_S8x4194304_0_1_n_n_1_1_81_wf

abbrev win0_0 : Pipeline.Window sig grid0 :=
  Pipeline.Window.ofSpec (Memref.whole main_v4) S8x4x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S8x32768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3145728 : Shape := ⟨2, ![8, 3145728]⟩
abbrev S4x1038240 : Shape := ⟨2, ![4, 1038240]⟩
abbrev S4152960 : Shape := ⟨1, ![4152960]⟩
abbrev S_ : Shape := ⟨0, ![]⟩
abbrev S4152960x1 : Shape := ⟨2, ![4152960, 1]⟩
abbrev S1 : Shape := ⟨1, ![1]⟩
abbrev S1x1 : Shape := ⟨2, ![1, 1]⟩
abbrev S8x4152960 : Shape := ⟨2, ![8, 4152960]⟩
abbrev S8x4x1038240 : Shape := ⟨3, ![8, 4, 1038240]⟩
abbrev S1x4x1038240 : Shape := ⟨3, ![1, 4, 1038240]⟩
abbrev S8x1038240 : Shape := ⟨2, ![8, 1038240]⟩

abbrev nBuf : Space → Nat
  | .hbm => 33
  | .vmem => 0
  | .smem => 0
  | _ => 0

abbrev bufTy : (tb : Table) → Fin (tcTables nBuf tb) → BufTy
  | .hbm, ⟨0, _⟩ => ⟨S8x3145728, .f32⟩
  | .hbm, ⟨1, _⟩ => ⟨S4x1038240, .f32⟩
  | .hbm, ⟨2, _⟩ => ⟨S4x1038240, .i32⟩
  | .hbm, ⟨3, _⟩ => ⟨S4152960, .i32⟩
  | .hbm, ⟨4, _⟩ => ⟨S_, .i32⟩
  | .hbm, ⟨5, _⟩ => ⟨S4152960, .i32⟩
  | .hbm, ⟨6, _⟩ => ⟨S4152960, .i1⟩
  | .hbm, ⟨7, _⟩ => ⟨S_, .i32⟩
  | .hbm, ⟨8, _⟩ => ⟨S4152960, .i32⟩
  | .hbm, ⟨9, _⟩ => ⟨S4152960, .i32⟩
  | .hbm, ⟨10, _⟩ => ⟨S4152960, .i32⟩
  | .hbm, ⟨11, _⟩ => ⟨S4152960x1, .i32⟩
  | .hbm, ⟨12, _⟩ => ⟨S1, .i32⟩
  | .hbm, ⟨13, _⟩ => ⟨S_, .i32⟩
  | .hbm, ⟨14, _⟩ => ⟨S4152960x1, .i32⟩
  | .hbm, ⟨15, _⟩ => ⟨S4152960x1, .i1⟩
  | .hbm, ⟨16, _⟩ => ⟨S1x1, .i32⟩
  | .hbm, ⟨17, _⟩ => ⟨S4152960x1, .i32⟩
  | .hbm, ⟨18, _⟩ => ⟨S4152960x1, .i1⟩
  | .hbm, ⟨19, _⟩ => ⟨S4152960x1, .i1⟩
  | .hbm, ⟨20, _⟩ => ⟨S_, .i1⟩
  | .hbm, ⟨21, _⟩ => ⟨S4152960, .i1⟩
  | .hbm, ⟨22, _⟩ => ⟨S8x4152960, .f32⟩
  | .hbm, ⟨23, _⟩ => ⟨S8x4152960, .i1⟩
  | .hbm, ⟨24, _⟩ => ⟨S_, .f32⟩
  | .hbm, ⟨25, _⟩ => ⟨S8x4152960, .f32⟩
  | .hbm, ⟨26, _⟩ => ⟨S8x4152960, .f32⟩
  | .hbm, ⟨27, _⟩ => ⟨S8x4x1038240, .f32⟩
  | .hbm, ⟨28, _⟩ => ⟨S1x4x1038240, .f32⟩
  | .hbm, ⟨29, _⟩ => ⟨S8x4x1038240, .f32⟩
  | .hbm, ⟨30, _⟩ => ⟨S8x4x1038240, .f32⟩
  | .hbm, ⟨31, _⟩ => ⟨S_, .f32⟩
  | .hbm, ⟨32, _⟩ => ⟨S8x1038240, .f32⟩
  | _, _ => ⟨S8x3145728, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩

abbrev nD : Nat := 1
abbrev τ : Topo := Topo.v7x

variable {F : FTy → Type} [FloatOps F]

class Facts₀ : Prop where
  shapeCasts_S4x1038240_S4152960 : S4x1038240.ShapeCasts S4152960
  bcast_S_S4152960 : S_.BroadcastsInDim S4152960 (![] : Fin 0 → Fin S4152960.rank)
  bcast_S4152960_S4152960x1_0 : S4152960.BroadcastsInDim S4152960x1 (![0] : Fin 1 → Fin S4152960x1.rank)
  bcast_S_S4152960x1 : S_.BroadcastsInDim S4152960x1 (![] : Fin 0 → Fin S4152960x1.rank)
  bcast_S1_S1x1_1 : S1.BroadcastsInDim S1x1 (![1] : Fin 1 → Fin S1x1.rank)
  bcast_S1x1_S4152960x1_0_1 : S1x1.BroadcastsInDim S4152960x1 (![0, 1] : Fin 2 → Fin S4152960x1.rank)
  reducesTo_S4152960x1_S4152960_d1 : S4152960x1.ReducesTo [1] S4152960
  h_S_ : 0 < S_.numel
  bcast_S4152960_S8x4152960_1 : S4152960.BroadcastsInDim S8x4152960 (![1] : Fin 1 → Fin S8x4152960.rank)
  bcast_S_S8x4152960 : S_.BroadcastsInDim S8x4152960 (![] : Fin 0 → Fin S8x4152960.rank)
  shapeCasts_S8x4152960_S8x4x1038240 : S8x4152960.ShapeCasts S8x4x1038240
  bcast_S4x1038240_S1x4x1038240_1_2 : S4x1038240.BroadcastsInDim S1x4x1038240 (![1, 2] : Fin 2 → Fin S1x4x1038240.rank)
  bcast_S1x4x1038240_S8x4x1038240_0_1_2 : S1x4x1038240.BroadcastsInDim S8x4x1038240 (![0, 1, 2] : Fin 3 → Fin S8x4x1038240.rank)
  reducesTo_S8x4x1038240_S8x1038240_d1 : S8x4x1038240.ReducesTo [1] S8x1038240
  gather_S8x3145728_S4152960x1_S8x4152960_0_1_n_n_1_1_81_wf : GatherDims.WF S8x3145728 S4152960x1 S8x4152960 [0] [1] [] [1] [] 1 ![8, 1]

variable [Facts₀]

def gather_S8x3145728_S4152960x1_S8x4152960_0_1_n_n_1_1_81 : GatherDims S8x3145728 S4152960x1 S8x4152960 where
  offsetDims := [0]
  collapsedSliceDims := [1]
  operandBatchingDims := []
  startIndicesBatchingDims := []
  startIndexMap := [1]
  indexVectorDim := 1
  sliceSizes := ![8, 1]
  wf := gather_S8x3145728_S4152960x1_S8x4152960_0_1_n_n_1_1_81_wf

class Facts : Prop extends Facts₀ where

variable [Facts]
-- ==== Proof.Take.lean ====
/-
  Gathering columns of a matrix by a list of integer positions, read one element at a time.

  Both programs select columns of the argument `x : [8, 3145728]` by a flat list of `N` integer positions
  (`jnp.take(x, idx, axis=-1)` in its default mode): a negative position counts from the end, a position
  outside `[0, 3145728)` after that yields the fill value, and otherwise the column at that position is copied.
  As operations on whole arrays this is a chain of comparisons, selects, broadcasts, a one-element `and`-reduction
  and a gather over arrays of length `N`.  The kernel's program runs the chain at `N = 4 · 1048576` (the positions
  padded to whole tiles), the reference at `N = 4 · 1038240`.  This module states the chain ONCE, for any `N`
  (`takeFn`), and proves that its element `(b, n)` depends on the `n`-th position alone: it is `takeAt x fill b (idx n)`,
  one scalar function of the position — the same function whatever `N` is.
-/
import Idealize.ShloMosaic.PureOps.Ideal
import Idealize.ShloMosaic.PureOps.Reduce
import Idealize.ShloMosaic.Lib.ValueIdx
import Idealize.ShloMosaic.Lib.Pipeline.Value

noncomputable section

namespace Cert.Take

open Idealize.ShloMosaic Idealize.ShloMosaic.ValueIdx

variable {α : Type}

/-- The matrix whose columns are selected. -/
abbrev SX : Shape := ⟨2, ![8, 3145728]⟩
abbrev S_ : Shape := ⟨0, ![]⟩
abbrev S1 : Shape := ⟨1, ![1]⟩
abbrev S1x1 : Shape := ⟨2, ![1, 1]⟩
/-- A list of `N` positions, the same as a column, and the selected columns. -/
abbrev SN (N : Nat) : Shape := ⟨1, ![N]⟩
abbrev SNx1 (N : Nat) : Shape := ⟨2, ![N, 1]⟩
abbrev S8xN (N : Nat) : Shape := ⟨2, ![8, N]⟩

/-! ## One position -/

/-- A negative position counts from the end: `i + 3145728`. -/
def wrapIdx (i : BitVec 32) : BitVec 32 :=
  Scalar.select (IntOp.cmpi .slt i 0#32) (IntOp.addi i 3145728#32) i

/-- Whether a (wrapped) position is a column of the matrix, `0 ≤ i ≤ 3145727`, as the programs compute it: the
    `and` of the two comparisons, `and`-reduced from `1` over the one component of the position. -/
def inRange (i : BitVec 32) : BitVec 1 :=
  (Finset.univ : Finset (Fin 1)).fold IntOp.andi 1#1
    (fun _ => IntOp.andi (IntOp.cmpi .sge i 0#32) (IntOp.cmpi .sle i 3145727#32))

/-- Row `b` of the column selected by position `i`: the fill value when the wrapped position is out of range,
    else the matrix at the wrapped position (read signed; the gather's clamp into `[0, 3145727]` is then idle). -/
def takeAt (x : SX.Idx → α) (fill : α) (b : Fin 8) (i : BitVec 32) : α :=
  Scalar.select (inRange (wrapIdx i)) (x (ix2 b ⟨min (wrapIdx i).toInt.toNat 3145727, by omega⟩)) fill

/-! ## The chain over `N` positions -/

/-- The shape relations the chain's operations take, at `N` positions. -/
structure Facts (N : Nat) : Prop where
  bcast_S_SN : S_.BroadcastsInDim (SN N) (![] : Fin 0 → Fin (SN N).rank)
  bcast_SN_SNx1_0 : (SN N).BroadcastsInDim (SNx1 N) (![0] : Fin 1 → Fin (SNx1 N).rank)
  bcast_S_SNx1 : S_.BroadcastsInDim (SNx1 N) (![] : Fin 0 → Fin (SNx1 N).rank)
  bcast_S1_S1x1_1 : S1.BroadcastsInDim S1x1 (![1] : Fin 1 → Fin S1x1.rank)
  bcast_S1x1_SNx1_0_1 : S1x1.BroadcastsInDim (SNx1 N) (![0, 1] : Fin 2 → Fin (SNx1 N).rank)
  reducesTo_SNx1_SN_d1 : (SNx1 N).ReducesTo [1] (SN N)
  reduces_SNx1_SN_d1 : (SNx1 N).Reduces [1] (SN N)
  h_S_ : 0 < S_.numel
  bcast_SN_S8xN_1 : (SN N).BroadcastsInDim (S8xN N) (![1] : Fin 1 → Fin (S8xN N).rank)
  bcast_S_S8xN : S_.BroadcastsInDim (S8xN N) (![] : Fin 0 → Fin (S8xN N).rank)
  gather_wf : GatherDims.WF SX (SNx1 N) (S8xN N) [0] [1] [] [1] [] 1 ![8, 1]

/-- The gather's dimension numbers: whole columns (`slice_sizes = [8, 1]`, the column axis collapsed), the start
    index's one component naming the column. -/
abbrev colDims (N : Nat) (wf : GatherDims.WF SX (SNx1 N) (S8xN N) [0] [1] [] [1] [] 1 ![8, 1]) :
    GatherDims SX (SNx1 N) (S8xN N) where
  offsetDims := [0]
  collapsedSliceDims := [1]
  operandBatchingDims := []
  startIndicesBatchingDims := []
  startIndexMap := [1]
  indexVectorDim := 1
  sliceSizes := ![8, 1]
  wf := wf

variable {N : Nat} (hf : Facts N)

/-- The wrapped positions as a column `[N, 1]` of start indices. -/
def idxCol (idx : IVec (SN N) 32) : IVec (SNx1 N) 32 :=
  broadcastInDim (SNx1 N) ![0] hf.bcast_SN_SNx1_0
    (select (cmpi .slt idx (broadcastInDim (SN N) ![] hf.bcast_S_SN (constantI S_ 32 0#32)))
      (addi idx (broadcastInDim (SN N) ![] hf.bcast_S_SN (constantI S_ 32 3145728#32))) idx)

/-- Which of them are in range. -/
def maskRow (col : IVec (SNx1 N) 32) : IVec (SN N) 1 :=
  Host.reduce IntOp.andi
    (andi (cmpi .sge col (broadcastInDim (SNx1 N) ![] hf.bcast_S_SNx1 (constantI S_ 32 0#32)))
      (cmpi .sle col (broadcastInDim (SNx1 N) ![0, 1] hf.bcast_S1x1_SNx1_0_1
        (broadcastInDim S1x1 ![1] hf.bcast_S1_S1x1_1 (constantI S1 32 3145727#32)))))
    (constantI S_ 1 1#1) hf.reducesTo_SNx1_SN_d1 hf.h_S_

/-- The selected columns `[8, N]`: the gather where the position is in range, the fill value elsewhere. -/
def takeFn (x : SX.Idx → α) (fill : S_.Idx → α) (idx : IVec (SN N) 32) : (S8xN N).Idx → α :=
  select (broadcastInDim (S8xN N) ![1] hf.bcast_SN_S8xN_1 (maskRow hf (idxCol hf idx)))
    (Host.gather (colDims N hf.gather_wf) x (idxCol hf idx))
    (broadcastInDim (S8xN N) ![] hf.bcast_S_S8xN fill)

/-! ## Read at one position -/

/-- Entry `(n, 0)` of the column of start indices is the wrapped `n`-th position. -/
theorem idxCol_apply (idx : IVec (SN N) 32) (n : Fin N) : idxCol hf idx (ix2 n (0 : Fin 1)) = wrapIdx (idx (ix1 n)) := by
  unfold idxCol
  refine (broadcastInDim_apply _ hf.bcast_SN_SNx1_0 _ (ix2 n (0 : Fin 1)) (ix1 n) ?_).trans rfl
  intro a
  match a with
  | ⟨0, _⟩ =>
    show n.val = if N = 1 then 0 else n.val
    have := n.isLt
    split <;> omega

/-- The mask at `n` is `inRange` of the start index at `(n, 0)`. -/
theorem maskRow_apply (col : IVec (SNx1 N) 32) (n : Fin N) : maskRow hf col (ix1 n) = inRange (col (ix2 n (0 : Fin 1))) := by
  unfold maskRow
  refine (Host.reduce_eq_fold_single IntOp.andi _ _ hf.reducesTo_SNx1_SN_d1 hf.reduces_SNx1_SN_d1 hf.h_S_ (ix1 n)).trans ?_
  unfold inRange
  refine congrArg (fun f => Finset.fold IntOp.andi 1#1 f Finset.univ) (funext fun k => ?_)
  have hk : hf.reduces_SNx1_SN_d1.lift (ix1 n) k = ix2 n (0 : Fin 1) := by
    funext c
    match c with
    | ⟨0, _⟩ => rfl
    | ⟨1, _⟩ => exact Fin.ext (by have hk1 : k.val < 1 := k.isLt; show k.val = 0; omega)
  show andi _ _ (hf.reduces_SNx1_SN_d1.lift (ix1 n) k) = _
  rw [hk]
  rfl

/-- The gather at `(b, n)` is the matrix at row `b` and the column the start index at `(n, 0)` names, read signed
    and clamped into `[0, 3145727]`. -/
theorem gather_apply (wf : GatherDims.WF SX (SNx1 N) (S8xN N) [0] [1] [] [1] [] 1 ![8, 1])
    (x : SX.Idx → α) (col : IVec (SNx1 N) 32) (b : Fin 8) (n : Fin N) (v : BitVec 32) (hv : col (ix2 n (0 : Fin 1)) = v) :
    Host.gather (colDims N wf) x col (ix2 b n) = x (ix2 b ⟨min v.toInt.toNat 3145727, by omega⟩) := by
  subst hv
  unfold Host.gather
  refine congrArg x (funext fun a => Fin.ext ?_)
  show (colDims N wf).start (ix2 b n) col a + (colDims N wf).batchCoord (ix2 b n) a + (colDims N wf).offCoord (ix2 b n) a = _
  rw [GatherDims.batchCoord_eq_zero _ _ _ List.not_mem_nil]
  match a with
  | ⟨0, _⟩ =>
    -- the row axis: no start component, the offset coordinate is the result's row
    have hs : (colDims N wf).start (ix2 b n) col ⟨0, by decide⟩ = 0 := by
      unfold GatherDims.start
      rw [dif_neg (fun h => absurd (congrArg Fin.val (List.mem_singleton.mp h)) Nat.zero_ne_one)]
    rw [hs]
    have ho : (colDims N wf).offCoord (ix2 b n) ⟨0, by decide⟩ = b.val := by
      unfold GatherDims.offCoord
      rw [dif_pos ((GatherDims.mem_sKept _ _).mpr
        ⟨fun h => absurd (congrArg Fin.val (List.mem_singleton.mp h)) Nat.zero_ne_one, List.not_mem_nil⟩)]
      rfl
    rw [ho]
    show 0 + 0 + b.val = b.val
    omega
  | ⟨1, _⟩ =>
    -- the column axis: collapsed, its coordinate is the clamped start
    rw [GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (colDims N wf).startIndexMap from List.mem_singleton.mpr rfl)]
    have hsi : (colDims N wf).siIdx (ix2 b n) ⟨List.idxOf (⟨1, by decide⟩ : Fin 2) (colDims N wf).startIndexMap,
        List.idxOf_lt_length_iff.2 (List.mem_singleton.mpr rfl)⟩ = ix2 n (0 : Fin 1) := by
      funext c; refine Fin.ext ?_
      match c with
      | ⟨0, _⟩ => rfl
      | ⟨1, _⟩ => rfl
    rw [hsi]
    rfl

/-- THE CHAIN READ AT `(b, n)`: row `b` of the column the `n`-th position selects. -/
theorem takeFn_apply (x : SX.Idx → α) (fill : S_.Idx → α) (idx : IVec (SN N) 32) (b : Fin 8) (n : Fin N) :
    takeFn hf x fill idx (ix2 b n) = takeAt x (fill ix0) b (idx (ix1 n)) := by
  unfold takeFn takeAt
  rw [select_apply, gather_apply hf.gather_wf x (idxCol hf idx) b n _ (idxCol_apply hf idx n)]
  have hm : broadcastInDim (S8xN N) ![1] hf.bcast_SN_S8xN_1 (maskRow hf (idxCol hf idx)) (ix2 b n)
      = inRange (wrapIdx (idx (ix1 n))) := by
    refine (broadcastInDim_apply _ hf.bcast_SN_S8xN_1 _ (ix2 b n) (ix1 n) ?_).trans ?_
    · intro a
      match a with
      | ⟨0, _⟩ =>
        show n.val = if N = 1 then 0 else n.val
        have := n.isLt
        split <;> omega
    · rw [maskRow_apply hf _ n, idxCol_apply hf idx n]
  have hfill : broadcastInDim (S8xN N) ![] hf.bcast_S_S8xN fill (ix2 b n) = fill ix0 :=
    congrArg fill (funext fun a => a.elim0)
  rw [hm, hfill]

end Cert.Take

end
-- ==== Proof.KPrefix.lean ====
/-
  What the kernel's region finds in its two input arrays.

  Before the region the program pads the positions `pix` and the weights `weight` from `1038240` to `32 · 32768 = 1048576`
  columns (position `0`, weight `0.0` in the `10336` added columns), flattens the padded positions, selects the columns of
  `x` they name (`jnp.take`: the chain of `Cert.Take` at `N = 4 · 1048576` positions) and views the result as
  `[8, 4, 1048576]`.  Window 0 of the region stages that array, window 1 the padded weights.
-/
import proofs.«178209_j9251359556349_2_alg».proof.Proof.Gen.KernelIdeal.Frame
import proofs.«178209_j9251359556349_2_alg».proof.Proof.Take
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The selection chain's shape relations at the kernel's `4 · 1048576` positions. -/
theorem takeFacts : Cert.Take.Facts 4194304 where
  bcast_S_SN := bcast_S_S4194304
  bcast_SN_SNx1_0 := bcast_S4194304_S4194304x1_0
  bcast_S_SNx1 := bcast_S_S4194304x1
  bcast_S1_S1x1_1 := bcast_S1_S1x1_1
  bcast_S1x1_SNx1_0_1 := bcast_S1x1_S4194304x1_0_1
  reducesTo_SNx1_SN_d1 := reducesTo_S4194304x1_S4194304_d1
  reduces_SNx1_SN_d1 := by decide
  h_S_ := h_S_
  bcast_SN_S8xN_1 := bcast_S4194304_S8x4194304_1
  bcast_S_S8xN := bcast_S_S8x4194304
  gather_wf := gather_S8x3145728_S4194304x1_S8x4194304_0_1_n_n_1_1_81_wf

/-- The positions padded with position `0` to whole tiles. -/
def padPix (pix : IVec S4x1038240 32) : IVec S4x1048576 32 :=
  pad S4x1048576 ![0, 0] ![0, 10336] ![0, 0] pix (constantI S_ 32 0#32) pads_S4x1038240_S4x1048576_000_0103360 h_S_

/-- The weights padded with `0.0` to whole tiles. -/
def padW (w : FVec F S4x1038240 .f32) : FVec F S4x1048576 .f32 :=
  pad S4x1048576 ![0, 0] ![0, 10336] ![0, 0] w (constant S_ .f32 0x00000000#32) pads_S4x1038240_S4x1048576_000_0103360 h_S_

/-- The columns of `x` the padded positions select, viewed `[8, 4, 1048576]`. -/
def sel (x : FVec F S8x3145728 .f32) (pix : IVec S4x1038240 32) : FVec F S8x4x1048576 .f32 :=
  shapeCast S8x4x1048576
    (Cert.Take.takeFn takeFacts x (constant S_ .f32 0x7FC00000#32) (shapeCast S4194304 (padPix pix) shapeCasts_S4x1048576_S4194304))
    shapeCasts_S8x4194304_S8x4x1048576

/-! ## The selection, a stretch at a time

The selection's twenty-three operations read as four stretches — the wrapped positions as a column of start indices, the
in-range mask, the gather, the select against the fill value — each stated from ANY contents `W` of the buffers, so that
no stretch's statement carries the earlier ones' terms. -/

/-- The wrapped positions as a column of start indices. -/
abbrev opsIdx : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4194304, .i32⟩) (broadcastInDim S4194304 ![] bcast_S_S4194304),
    StableHlo.TRef.binary (.of main_v2 : StableHlo.TRef sig ⟨S4194304, .i32⟩) (.of main_call2_v0 : StableHlo.TRef sig ⟨S4194304, .i32⟩) (.of main_call2_v1 : StableHlo.TRef sig ⟨S4194304, .i1⟩) (cmpi .slt),
    StableHlo.TRef.nullary (.of main_call2_c_0 : StableHlo.TRef sig ⟨S_, .i32⟩) (constantI S_ 32 3145728#32),
    StableHlo.TRef.unary (.of main_call2_c_0 : StableHlo.TRef sig ⟨S_, .i32⟩) (.of main_call2_v2 : StableHlo.TRef sig ⟨S4194304, .i32⟩) (broadcastInDim S4194304 ![] bcast_S_S4194304),
    StableHlo.TRef.binary (.of main_v2 : StableHlo.TRef sig ⟨S4194304, .i32⟩) (.of main_call2_v2 : StableHlo.TRef sig ⟨S4194304, .i32⟩) (.of main_call2_v3 : StableHlo.TRef sig ⟨S4194304, .i32⟩) addi,
    StableHlo.TRef.ternary (.of main_call2_v1 : StableHlo.TRef sig ⟨S4194304, .i1⟩) (.of main_call2_v3 : StableHlo.TRef sig ⟨S4194304, .i32⟩) (.of main_v2 : StableHlo.TRef sig ⟨S4194304, .i32⟩) (.of main_call2_v4 : StableHlo.TRef sig ⟨S4194304, .i32⟩) select,
    StableHlo.TRef.unary main_call2_call0.v0 (.of main_call2_v5 : StableHlo.TRef sig ⟨S4194304x1, .i32⟩) (broadcastInDim S4194304x1 ![0] bcast_S4194304_S4194304x1_0) ]
/-- The in-range mask. -/
abbrev opsMask : List (HloOp τ sig (Elt F)) :=
  [ StableHlo.TRef.nullary (.of main_call2_c_1 : StableHlo.TRef sig ⟨S1, .i32⟩) (constantI S1 32 3145727#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4194304x1, .i32⟩) (broadcastInDim S4194304x1 ![] bcast_S_S4194304x1),
    StableHlo.TRef.binary (.of main_call2_v5 : StableHlo.TRef sig ⟨S4194304x1, .i32⟩) (.of main_call2_v6 : StableHlo.TRef sig ⟨S4194304x1, .i32⟩) (.of main_call2_v7 : StableHlo.TRef sig ⟨S4194304x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S4194304x1, .i32⟩) (broadcastInDim S4194304x1 ![0, 1] bcast_S1x1_S4194304x1_0_1),
    StableHlo.TRef.binary (.of main_call2_v5 : StableHlo.TRef sig ⟨S4194304x1, .i32⟩) (.of main_call2_v9 : StableHlo.TRef sig ⟨S4194304x1, .i32⟩) (.of main_call2_v10 : StableHlo.TRef sig ⟨S4194304x1, .i1⟩) (cmpi .sle),
    StableHlo.TRef.binary (.of main_call2_v7 : StableHlo.TRef sig ⟨S4194304x1, .i1⟩) (.of main_call2_v10 : StableHlo.TRef sig ⟨S4194304x1, .i1⟩) (.of main_call2_v11 : StableHlo.TRef sig ⟨S4194304x1, .i1⟩) andi,
    StableHlo.TRef.nullary (.of main_call2_c_3 : StableHlo.TRef sig ⟨S_, .i1⟩) (constantI S_ 1 1#1),
    StableHlo.TRef.binary (.of main_call2_v11 : StableHlo.TRef sig ⟨S4194304x1, .i1⟩) (.of main_call2_c_3 : StableHlo.TRef sig ⟨S_, .i1⟩) (.of main_call2_v12 : StableHlo.TRef sig ⟨S4194304, .i1⟩) (fun x v => Host.reduce IntOp.andi x v reducesTo_S4194304x1_S4194304_d1 h_S_) ]
/-- The gather. -/
abbrev opsGather : List (HloOp τ sig (Elt F)) :=
  [ StableHlo.TRef.binary (.of main_arg0 : StableHlo.TRef sig ⟨S8x3145728, .f32⟩) (.of main_call2_v5 : StableHlo.TRef sig ⟨S4194304x1, .i32⟩) (.of main_call2_v13 : StableHlo.TRef sig ⟨S8x4194304, .f32⟩) (fun x i => Host.gather gather_S8x3145728_S4194304x1_S8x4194304_0_1_n_n_1_1_81 x i) ]
/-- The select against the fill value. -/
abbrev opsSelect : List (HloOp τ sig (Elt F)) :=
  [ StableHlo.TRef.unary (.of main_call2_v12 : StableHlo.TRef sig ⟨S4194304, .i1⟩) (.of main_call2_v14 : StableHlo.TRef sig ⟨S8x4194304, .i1⟩) (broadcastInDim S8x4194304 ![1] bcast_S4194304_S8x4194304_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S8x4194304, .f32⟩) (broadcastInDim S8x4194304 ![] bcast_S_S8x4194304),
    StableHlo.TRef.ternary (.of main_call2_v14 : StableHlo.TRef sig ⟨S8x4194304, .i1⟩) (.of main_call2_v13 : StableHlo.TRef sig ⟨S8x4194304, .f32⟩) (.of main_call2_v15 : StableHlo.TRef sig ⟨S8x4194304, .f32⟩) (.of main_v3 : StableHlo.TRef sig ⟨S8x4194304, .f32⟩) select ]

theorem take_split : (hostOps0_5 : List (HloOp τ sig (Elt F))) = opsIdx ++ (opsMask ++ (opsGather ++ opsSelect)) := rfl

variable (W : Valuation τ sig (Elt F))

theorem idx_col : after opsIdx W (main_call2_v5 : DevRef τ sig) = Cert.Take.idxCol takeFacts (W (main_v2 : DevRef τ sig)) := by
  after_results
  rfl
theorem idx_arg0 : after opsIdx W (main_arg0 : DevRef τ sig) = W (main_arg0 : DevRef τ sig) := by
  after_results
attribute [local irreducible] Host.reduce in
theorem mask_row : after opsMask W (main_call2_v12 : DevRef τ sig) = Cert.Take.maskRow takeFacts (W (main_call2_v5 : DevRef τ sig)) := by
  after_results
  rfl
theorem mask_col : after opsMask W (main_call2_v5 : DevRef τ sig) = W (main_call2_v5 : DevRef τ sig) := by
  after_results
theorem mask_arg0 : after opsMask W (main_arg0 : DevRef τ sig) = W (main_arg0 : DevRef τ sig) := by
  after_results
attribute [local irreducible] Host.gather in
theorem gather_cols : after opsGather W (main_call2_v13 : DevRef τ sig)
    = Host.gather (Cert.Take.colDims 4194304 takeFacts.gather_wf) (W (main_arg0 : DevRef τ sig)) (W (main_call2_v5 : DevRef τ sig)) := by
  after_results
  rfl
theorem gather_mask : after opsGather W (main_call2_v12 : DevRef τ sig) = W (main_call2_v12 : DevRef τ sig) := by
  after_results
theorem select_out : after opsSelect W (main_v3 : DevRef τ sig)
    = select (broadcastInDim (Cert.Take.S8xN 4194304) ![1] takeFacts.bcast_SN_S8xN_1 (W (main_call2_v12 : DevRef τ sig)))
        (W (main_call2_v13 : DevRef τ sig))
        (broadcastInDim (Cert.Take.S8xN 4194304) ![] takeFacts.bcast_S_S8xN (constant S_ .f32 0x7FC00000#32)) := by
  after_results
  rfl

/-- The twenty-three operations together: the selected columns are `Cert.Take.takeFn` of the matrix and the flat positions. -/
theorem take_out : after (hostOps0_5 : List (HloOp τ sig (Elt F))) W (main_v3 : DevRef τ sig)
    = Cert.Take.takeFn takeFacts (W (main_arg0 : DevRef τ sig)) (constant S_ .f32 0x7FC00000#32) (W (main_v2 : DevRef τ sig)) := by
  rw [take_split, StableHlo.after_append, StableHlo.after_append, StableHlo.after_append, select_out, gather_mask, gather_cols,
    mask_row, mask_col, mask_arg0, idx_col, idx_arg0]
  rfl

/-! ## Around the selection -/

/-- Before the selection: the positions padded and flattened. -/
theorem pre_flat : after hostOps0_4 (after hostOps0_3 (after hostOps0_2 (after hostOps0_1 (after hostOps0 W)))) (main_v2 : DevRef τ sig)
    = shapeCast S4194304 (padPix (W (main_arg2 : DevRef τ sig))) shapeCasts_S4x1048576_S4194304 := by
  after_results
  rfl
theorem pre_arg0 : after hostOps0_4 (after hostOps0_3 (after hostOps0_2 (after hostOps0_1 (after hostOps0 W)))) (main_arg0 : DevRef τ sig)
    = W (main_arg0 : DevRef τ sig) := by
  after_results
/-- After it: the selected columns viewed `[8, 4, 1048576]`. -/
theorem post_view : after hostOps0_6 W (main_v4 : DevRef τ sig)
    = shapeCast S8x4x1048576 (W (main_v3 : DevRef τ sig)) shapeCasts_S8x4194304_S8x4x1048576 := by
  after_results
  rfl

variable (m : (ℓ : Loc nD τ sig) → Buf (Elt F) ℓ)

/-- Window 0's array as the region finds it. -/
theorem V_sel (c : Dev nD) :
    (V m c main_v4 : S8x4x1048576.Idx → Elt F .f32) = sel (m ((c : Thread nD τ).loc main_arg0)) (m ((c : Thread nD τ).loc main_arg2)) := by
  dsimp only [Gen.V, Gen.V0]
  simp only [List.flatten_cons, List.flatten_nil, List.append_nil, StableHlo.after_append]
  rw [post_view, take_out, pre_flat, pre_arg0]
  rfl

set_option maxHeartbeats 1000000 in
/-- Window 1's array as the region finds it. -/
theorem V_w (c : Dev nD) :
    (V m c main_v1 : S4x1048576.Idx → Elt F .f32) = padW (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

end Cert.KernelIdeal.Prefix

end
-- ==== Proof.KTiles.lean ====
/-
  From the region's blocks to its result array.

  At grid point `t` the body loads tile `t` of the selected columns (`[8, 4, 32768]` out of `[8, 4, 1048576]`) and of the
  padded weights (`[4, 32768]` out of `[4, 1048576]`), multiplies them with the weights broadcast over the batch axis,
  sums over the stencil axis and stores the `[8, 32768]` result, which the pipeline writes back as tile `t` of the
  `[8, 1048576]` result array.  So element `(b, p)` of a stored tile is `Σ_k a[b, k, p] · w[k, p]` at the tile's own
  columns; every column lies in exactly one of the 32 tiles; hence the whole result array is `tileSum a w`, one function
  of the two input arrays as the region finds them.
-/
import proofs.«178209_j9251359556349_2_alg».proof.Proof.Gen.KernelIdeal.Frame
import Idealize.ShloMosaic.Lib.Pipeline.Value
import Idealize.ShloMosaic.Lib.ValueIdx
import Idealize.ShloMosaic.PureOps.Ideal.Laws

set_option Elab.async false

noncomputable section

open scoped BigOperators

namespace Cert.KernelIdeal.Tiles

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The stencil sum over whole (padded) arrays: `out[b, p] = Σ_k a[b, k, p] · w[k, p]`. -/
def tileSum (a : S8x4x1048576.Idx → EReal) (w : S4x1048576.Idx → EReal) : S8x1048576.Idx → EReal :=
  fun j => ∑ k : Fin 4, a (ix3 (j 0) k (j 1)) * w (ix2 k (j 1))

theorem tileSum_apply (a : S8x4x1048576.Idx → EReal) (w : S4x1048576.Idx → EReal) (b : Fin 8) (p : Fin 1048576) :
    tileSum a w (ix2 b p) = ∑ k : Fin 4, a (ix3 b k p) * w (ix2 k p) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's stored value at one element -/

/-- The value the body stores, at `(b, q)` of its tile: the sum over the stencil axis of the loaded tile of columns times
    the loaded tile of weights. -/
theorem pay_apply (x0 : Vec Ideal S8x4x32768 .f32) (x1 : Vec Ideal S4x32768 .f32) (b : Fin 8) (q : Fin 32768) :
    k0_pay1 x0 x1 (ix2 b q) = ∑ k : Fin 4, x0 (ix3 b k q) * x1 (ix2 k q) := by
  unfold k0_pay1
  refine (Ideal.multiReduction_add_single _ _ reduces_S8x4x32768_S8x32768 (.inl rfl) rfl (ix2 b q)).trans ?_
  show (∑ k : Fin 4, _) = ∑ k : Fin 4, _
  refine Finset.sum_congr rfl fun (k : Fin 4) _ => ?_
  have hl : reduces_S8x4x32768_S8x32768.lift (ix2 b q) k = ix3 b k q := by
    funext c
    match c with
    | ⟨0, _⟩ => rfl
    | ⟨1, _⟩ => rfl
    | ⟨2, _⟩ => rfl
  rw [hl, mulf_apply, shapeCast_self, shapeCast_self]
  refine congrArg (x0 (ix3 b k q) * ·) ?_
  refine (broadcastTo_apply _ broadcasts_S1x4x32768_S8x4x32768 (ix3 b k q) (ix3 (0 : Fin 1) k q) ?_).trans ?_
  · intro a
    match a with
    | ⟨0, _⟩ => rfl
    | ⟨1, _⟩ => rfl
    | ⟨2, _⟩ => rfl
  · refine shapeCast_apply x1 _ (ix3 (0 : Fin 1) k q) (ix2 k q) ?_
    rw [Shape.rowMajor_val_two, Shape.rowMajor_val_three]
    show k.val * 32768 + q.val = (0 * 4 + k.val) * 32768 + q.val
    omega

/-! ## The tiles' places in the arrays -/

/-- The printed index maps over the 32 grid points: every window sits at block 0 on its leading axes, and both
    inputs move along the column axis with the output, whose block index stays below 32. -/
theorem idx_facts : ∀ t : Fin cfg0.N,
    win0_0.index t (0 : Fin 3) = 0 ∧ win0_0.index t (1 : Fin 3) = 0 ∧ win0_0.index t (2 : Fin 3) = win0_2.index t (1 : Fin 2)
    ∧ win0_1.index t (0 : Fin 2) = 0 ∧ win0_1.index t (1 : Fin 2) = win0_2.index t (1 : Fin 2)
    ∧ win0_2.index t (0 : Fin 2) = 0 ∧ win0_2.index t (1 : Fin 2) ≤ 31 :=
  (by decide +kernel : ∀ t : Fin grid0.N, _)

/-- Every one of the 32 column tiles is some point's. -/
theorem idx_onto : ∀ q : Fin 32, ∃ t : Fin cfg0.N, win0_2.index t = ![0, q.val] :=
  (by decide +kernel : ∀ q : Fin 32, ∃ t : Fin grid0.N, win0_2.index t = ![0, q.val])

/-- Window 0's tile at point `t`, read off any array of its shape: the array at the tile's columns. -/
theorem read_blk0 (A : S8x4x1048576.Idx → Elt Ideal .f32) (t : Fin cfg0.N) (b : Fin 8) (k : Fin 4) (q : Fin 32768) (p : Fin 1048576)
    (hp : p.val = win0_2.index t (1 : Fin 2) * 32768 + q.val) :
    (((cfg0.win 0).blk t).view.read (Elt Ideal) A : Vec Ideal S8x4x32768 .f32) (ix3 b k q) = A (ix3 b k p) := by
  obtain ⟨e0, e1, e2, -⟩ := idx_facts t
  rw [View.read_apply]
  refine congrArg A (funext fun a => Fin.ext ?_)
  match a with
  | ⟨0, _⟩ => show win0_0.index t (0 : Fin 3) * 8 + 1 * b.val = b.val; rw [e0]; omega
  | ⟨1, _⟩ => show win0_0.index t (1 : Fin 3) * 4 + 1 * k.val = k.val; rw [e1]; omega
  | ⟨2, _⟩ => show win0_0.index t (2 : Fin 3) * 32768 + 1 * q.val = p.val; rw [e2, hp]; omega

/-- Window 1's tile at point `t`, read off any array of its shape: the array at the tile's columns. -/
theorem read_blk1 (B : S4x1048576.Idx → Elt Ideal .f32) (t : Fin cfg0.N) (k : Fin 4) (q : Fin 32768) (p : Fin 1048576)
    (hp : p.val = win0_2.index t (1 : Fin 2) * 32768 + q.val) :
    (((cfg0.win 1).blk t).view.read (Elt Ideal) B : Vec Ideal S4x32768 .f32) (ix2 k q) = B (ix2 k p) := by
  obtain ⟨-, -, -, e3, e4, -⟩ := idx_facts t
  rw [View.read_apply]
  refine congrArg B (funext fun a => Fin.ext ?_)
  match a with
  | ⟨0, _⟩ => show win0_1.index t (0 : Fin 2) * 4 + 1 * k.val = k.val; rw [e3]; omega
  | ⟨1, _⟩ => show win0_1.index t (1 : Fin 2) * 32768 + 1 * q.val = p.val; rw [e4, hp]; omega

/-- Element `(b, q)` of the output's tile at point `t` sits at column `(tile index) · 32768 + q` of the result array. -/
theorem emb_blk2 (t : Fin cfg0.N) (b : Fin 8) (q : Fin 32768) (p : Fin 1048576)
    (hp : p.val = win0_2.index t (1 : Fin 2) * 32768 + q.val) :
    ((cfg0.win 2).blk t).view.emb (ix2 b q) = ix2 b p := by
  obtain ⟨-, -, -, -, -, e5, -⟩ := idx_facts t
  funext a
  apply Fin.ext
  match a with
  | ⟨0, _⟩ => show win0_2.index t (0 : Fin 2) * 8 + 1 * b.val = b.val; rw [e5]; omega
  | ⟨1, _⟩ => show win0_2.index t (1 : Fin 2) * 32768 + 1 * q.val = p.val; rw [hp]; omega

/-! ## What a point writes back, the cover, the array -/

/-- The stored tile, over ANY two input arrays `A`, `B` of the windows' shapes: element `(b, q)` of what the body stores
    from their tiles at point `t` is `tileSum A B` at that element's place in the result array. -/
theorem stored_apply (A : S8x4x1048576.Idx → Elt Ideal .f32) (B : S4x1048576.Idx → Elt Ideal .f32) (t : Fin cfg0.N) (b : Fin 8) (q : Fin 32768) :
    k0_pay1 (((cfg0.win 0).blk t).view.read (Elt Ideal) A) (((cfg0.win 1).blk t).view.read (Elt Ideal) B) (ix2 b q)
      = tileSum A B (((cfg0.win 2).blk t).view.emb (ix2 b q)) := by
  obtain ⟨-, -, -, -, -, -, e6⟩ := idx_facts t
  have hq : q.val < 32768 := q.isLt
  have hpl : win0_2.index t (1 : Fin 2) * 32768 + q.val < 1048576 := by omega
  rw [emb_blk2 t b q ⟨_, hpl⟩ rfl, tileSum_apply, pay_apply _ _ b q]
  refine Finset.sum_congr rfl fun k _ => ?_
  rw [read_blk0 A t b k q ⟨_, hpl⟩ rfl, read_blk1 B t k q ⟨_, hpl⟩ rfl]

/-- The same at any element `j` of the tile. -/
theorem stored_at (A : S8x4x1048576.Idx → Elt Ideal .f32) (B : S4x1048576.Idx → Elt Ideal .f32) (t : Fin cfg0.N) (j : S8x32768.Idx) :
    k0_pay1 (((cfg0.win 0).blk t).view.read (Elt Ideal) A) (((cfg0.win 1).blk t).view.read (Elt Ideal) B) j
      = tileSum A B (((cfg0.win 2).blk t).view.emb j) := by
  obtain ⟨b, q, rfl⟩ : ∃ (b : Fin 8) (q : Fin 32768), j = ix2 b q := ⟨j 0, j 1, eq_ix2 j⟩
  exact stored_apply A B t b q

/-- The two input windows' arrays are the buffers `%4` and `%1` of @main. -/
theorem arr0_eq (c : Dev nD) : (V m c (Pipeline.arrRef spec0 0) : S8x4x1048576.Idx → Elt Ideal .f32) = V m c main_v4 := rfl
theorem arr1_eq (c : Dev nD) : (V m c (Pipeline.arrRef spec0 1) : S4x1048576.Idx → Elt Ideal .f32) = V m c main_v1 := rfl

/-- WHAT POINT `t` WRITES BACK is tile `t` of `tileSum` of the two input arrays as the region finds them. -/
theorem flushed_eq (c : Dev nD) (t : Fin cfg0.N) :
    (dats m 0 c).flushed 2 t
      = ((cfg0.win 2).blk t).view.read (Elt Ideal) (tileSum (V m c main_v4) (V m c main_v1)) := by
  show (cfg0.win 2).cut (grid0.coords t) ((dats m 0 c).after 2 t) = _
  rw [after0_2]
  unfold out0_2
  rw [View.canon_unit_zero hz2]
  simp only [View.ld_unit_zero (S := S8x4x32768) hz3, View.ld_unit_zero (S := S4x32768) hz2]
  unfold iblk
  funext j
  refine (stored_at (V m c (Pipeline.arrRef spec0 0)) (V m c (Pipeline.arrRef spec0 1)) t ((cfg0.win 2).xinj (grid0.coords t) j)).trans ?_
  have he : ((cfg0.win 2).blk t).view.emb ((cfg0.win 2).xinj (grid0.coords t) j) = ((cfg0.win 2).blk t).view.emb j :=
    funext fun a => Fin.ext rfl
  rw [View.read_apply, he, arr0_eq m c, arr1_eq m c]
  exact (cast_eq _ _).symm

/-- An index of the result array is in point `t`'s tile iff each coordinate is in the tile's range on its axis. -/
theorem mem_blk (t : Fin cfg0.N) (i : S8x1048576.Idx) :
    i ∈ ((cfg0.win 2).blk t).view.set ↔ ∀ a : Fin 2, win0_2.index t a * S8x32768.size a ≤ (i a).val ∧ (i a).val < win0_2.index t a * S8x32768.size a + S8x32768.size a := by
  show i ∈ ((View.whole main_v5).slice (win0_2.rect t)).set ↔ _
  rw [View.set_slice_whole, Rect.mem_set_unit]
  exact Iff.rfl

/-- Every index of the result array is in some point's tile: column `p` in tile `p / 32768`. -/
theorem cover (i : S8x1048576.Idx) : ∃ t : Fin cfg0.N, (cfg0.win 2).flush t = true ∧ i ∈ ((cfg0.win 2).blk t).view.set := by
  have hi0 : (i 0).val < 8 := (i 0).isLt
  have hi1 : (i 1).val < 1048576 := (i 1).isLt
  obtain ⟨t, ht⟩ := idx_onto ⟨(i 1).val / 32768, by omega⟩
  have q0 : win0_2.index t (0 : Fin 2) = 0 := congrFun ht 0
  have q1 : win0_2.index t (1 : Fin 2) = (i 1).val / 32768 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 32768 ≤ (i 1).val ∧ (i 1).val < win0_2.index t (1 : Fin 2) * 32768 + 32768; omega

/-- THE RESULT ARRAY after the region. -/
theorem final (c : Dev nD) : (dats m 0 c).arrAt 2 cfg0.N = tileSum (V m c main_v4) (V m c main_v1) :=
  (dats m 0 c).arrAt_eq_of_cover 2 (tileSum (V m c main_v4) (V m c main_v1)) (fun t _ => flushed_eq m c t) cover

end Cert.KernelIdeal.Tiles

end
-- ==== Proof.Spec.lean ====
/-
  The weighted stencil sum both programs compute, element by element on the extended reals.

  `out[b, p] = Σ_k take(x, pix[k, p])[b] · weight[k, p]`: for each of the `K = 4` stencil points the column of `x` the
  position `pix[k, p]` selects (`Cert.Take.takeAt`: a negative position wrapped, a position out of range read as the
  fill value `jnp.take` uses for floats, the word `0x7FC00000`), times the weight, summed over `k`.
-/
import proofs.«178209_j9251359556349_2_alg».proof.Proof.Take

noncomputable section

open scoped BigOperators

namespace Cert.Spec

open Idealize.ShloMosaic Idealize.ShloMosaic.ValueIdx

/-- The weights' and positions' shape, and the result's. -/
abbrev SW : Shape := ⟨2, ![4, 1038240]⟩
abbrev SOut : Shape := ⟨2, ![8, 1038240]⟩

/-- The fill value of an out-of-range position, as both programs spell it. -/
abbrev fill : EReal := Ideal.ofBits .f32 0x7FC00000#32

/-- One term of the stencil sum: row `b` of the column position `i` selects, times the weight `v`. -/
def term (x : Cert.Take.SX.Idx → EReal) (b : Fin 8) (i : BitVec 32) (v : EReal) : EReal :=
  Cert.Take.takeAt x fill b i * v

/-- The result, as a function of the three arguments. -/
def weighted (x : Cert.Take.SX.Idx → EReal) (w : SW.Idx → EReal) (pix : IVec SW 32) : SOut.Idx → EReal :=
  fun j => ∑ k : Fin 4, term x (j 0) (pix (ix2 k (j 1))) (w (ix2 k (j 1)))

theorem weighted_apply (x : Cert.Take.SX.Idx → EReal) (w : SW.Idx → EReal) (pix : IVec SW 32) (b : Fin 8) (p : Fin 1038240) :
    weighted x w pix (ix2 b p) = ∑ k : Fin 4, term x b (pix (ix2 k p)) (w (ix2 k p)) := rfl

end Cert.Spec

end
-- ==== Proof.KRun.lean ====
/-
  The kernel's program computes the weighted stencil sum.

  After the region the program keeps the first `1038240` columns of the `[8, 1048576]` result array.  There the array is
  `Σ_k a[b, k, p] · w[k, p]` (`Tiles.final`) with `a` the selected columns and `w` the padded weights as the region finds
  them (`Prefix.V_sel`, `Prefix.V_w`); below column `1038240` the padding reads the operand, so `a[b, k, p]` is the column
  of `x` that position `pix[k, p]` selects and `w[k, p]` is `weight[k, p]`: the padded columns never reach the result.
-/
import proofs.«178209_j9251359556349_2_alg».proof.Proof.KPrefix
import proofs.«178209_j9251359556349_2_alg».proof.Proof.KTiles
import proofs.«178209_j9251359556349_2_alg».proof.Proof.Spec

noncomputable section

open scoped BigOperators

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

/-! ## The padding, read below the padded columns -/

/-- `pad` by `10336` columns on the right reads the operand at every column below `1038240`. -/
theorem pad_apply {α : Type} (x : S4x1038240.Idx → α) (v : S_.Idx → α)
    (h : S4x1038240.Pads (![0, 0] : Fin 2 → Nat) ![0, 10336] ![0, 0] S4x1048576) (hu : 0 < S_.numel)
    (k : Fin 4) (p : Fin 1038240) (p' : Fin 1048576) (hp : p'.val = p.val) :
    pad S4x1048576 ![0, 0] ![0, 10336] ![0, 0] x v h hu (ix2 k p') = x (ix2 k p) := by
  unfold pad
  split
  · refine congrArg x (funext fun a => Fin.ext ?_)
    match a with
    | ⟨0, _⟩ => show (k.val - 0) / (0 + 1) = k.val; omega
    | ⟨1, _⟩ => show (p'.val - 0) / (0 + 1) = p.val; omega
  · rename_i hneg
    refine absurd (fun a => ?_) hneg
    have hk : k.val < 4 := k.isLt
    have hpl : p.val < 1038240 := p.isLt
    match a with
    | ⟨0, _⟩ =>
      show 0 ≤ k.val ∧ (k.val - 0) % (0 + 1) = 0 ∧ (k.val - 0) / (0 + 1) < 4
      omega
    | ⟨1, _⟩ =>
      show 0 ≤ p'.val ∧ (p'.val - 0) % (0 + 1) = 0 ∧ (p'.val - 0) / (0 + 1) < 1038240
      omega

/-! ## The two input arrays at one element -/

/-- The padded positions flattened, read at `k · 1048576 + p`. -/
theorem flat_apply (pix : IVec S4x1038240 32) (k : Fin 4) (p : Fin 1048576) (n : Fin 4194304) (hn : n.val = k.val * 1048576 + p.val) :
    shapeCast S4194304 (Prefix.padPix pix) shapeCasts_S4x1048576_S4194304 (ix1 n) = Prefix.padPix pix (ix2 k p) := by
  refine shapeCast_apply _ _ (ix1 n) (ix2 k p) ?_
  rw [Shape.rowMajor_val_two, Shape.rowMajor_val_one]
  show k.val * 1048576 + p.val = n.val
  omega

/-- The selected columns at `(b, k, p)`, `p` below the padding: row `b` of the column position `pix[k, p]` selects. -/
theorem sel_apply (x : FVec Ideal S8x3145728 .f32) (pix : IVec S4x1038240 32) (b : Fin 8) (k : Fin 4) (p : Fin 1038240)
    (p' : Fin 1048576) (hp : p'.val = p.val) :
    Prefix.sel (F := Ideal) x pix (ix3 b k p') = Cert.Take.takeAt x Cert.Spec.fill b (pix (ix2 k p)) := by
  unfold Prefix.sel
  have hn : k.val * 1048576 + p'.val < 4194304 := by have := k.isLt; have := p'.isLt; omega
  refine (shapeCast_apply _ shapeCasts_S8x4194304_S8x4x1048576 (ix3 b k p') (ix2 b (⟨k.val * 1048576 + p'.val, hn⟩ : Fin 4194304)) ?_).trans ?_
  · rw [Shape.rowMajor_val_two, Shape.rowMajor_val_three]
    show b.val * 4194304 + (k.val * 1048576 + p'.val) = (b.val * 4 + k.val) * 1048576 + p'.val
    omega
  · rw [Cert.Take.takeFn_apply, flat_apply pix k p' _ rfl]
    unfold Prefix.padPix
    rw [pad_apply pix _ _ _ k p p' hp]
    rfl

/-- The padded weights at `(k, p)`, `p` below the padding. -/
theorem wgt_apply (w : FVec Ideal S4x1038240 .f32) (k : Fin 4) (p : Fin 1038240) (p' : Fin 1048576) (hp : p'.val = p.val) :
    Prefix.padW (F := Ideal) w (ix2 k p') = w (ix2 k p) := by
  unfold Prefix.padW
  exact pad_apply w _ _ _ k p p' hp

/-! ## The result -/

variable (m : (ℓ : Loc nD τ sig) → Buf (Elt Ideal) ℓ) (ρ : Dev nD → PrngReg)

/-- The first `1038240` columns of the region's result array are the weighted stencil sum of the arguments. -/
theorem out_eq (c : Dev nD) :
    extractStridedSlice S8x1038240 ![0, 0] (Tiles.tileSum (V m c main_v4) (V m c main_v1)) slices_S8x1048576_S8x1038240_0_0
      = Cert.Spec.weighted (m ((c : Thread nD τ).loc main_arg0)) (m ((c : Thread nD τ).loc main_arg1)) (m ((c : Thread nD τ).loc main_arg2)) := by
  funext j
  obtain ⟨b, p, rfl⟩ : ∃ (b : Fin 8) (p : Fin 1038240), j = ix2 b p := ⟨j 0, j 1, eq_ix2 j⟩
  have hp' : p.val < 1048576 := by have := p.isLt; omega
  refine (extractStridedSlice_apply _ _ slices_S8x1048576_S8x1038240_0_0 (ix2 b p) (ix2 b (⟨p.val, hp'⟩ : Fin 1048576)) ?_).trans ?_
  · intro a
    match a with
    | ⟨0, _⟩ => show b.val = 0 + b.val; omega
    | ⟨1, _⟩ => show p.val = 0 + p.val; omega
  · rw [Tiles.tileSum_apply, Cert.Spec.weighted_apply, Prefix.V_sel m c, Prefix.V_w m c]
    refine Finset.sum_congr rfl fun k _ => ?_
    rw [sel_apply _ _ b k p ⟨p.val, hp'⟩ rfl, wgt_apply _ k p ⟨p.val, hp'⟩ rfl]
    rfl

/-- After the frame run the result buffer holds the slice of the region's result array. -/
theorem out_post (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v6)
      = extractStridedSlice S8x1038240 ![0, 0] (Tiles.tileSum (V m c main_v4) (V m c main_v1)) slices_S8x1048576_S8x1038240_0_0 := by
  refine ((h c).2 main_v6 (Pipeline.mem_restRefs_of main_v6 (by decide) (by decide))).trans ?_
  unfold Pipeline.afterTail₀
  show StableHlo.after hostOps1 _ (Proc.devRef .tc main_v6) = _
  after_results
  refine congrArg (fun z : S8x1048576.Idx → Elt Ideal .f32 => extractStridedSlice S8x1038240 ![0, 0] z slices_S8x1048576_S8x1038240_0_0) ?_
  exact (Pipeline.withArrays_arr spec0 launch0.win.arr_inj c _ _ 2).trans (Tiles.final m c)

/-- THE KERNEL'S RUN, READ: the result is the weighted stencil sum of the arguments, the arguments unchanged. -/
theorem run : θ_run defs (onTc (τ := τ) (main (F := Ideal))) ⟨m, fun _ => 0, ρ⟩ fun r => ∀ c : Dev nD,
      r.2.mem ((c : Thread nD τ).loc main_v6)
          = Cert.Spec.weighted (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(out_post m r h c).trans (out_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefRun.lean ====
/-
  The reference program's run, read back as a function of its arguments.

  The reference is a straight line of host operations: the positions `pix : [4, 1038240]` flattened, the columns of
  `x` they select (`jnp.take`, whose outlined body — and the `where` outlined inside it — is listed here inline at the
  call), the result viewed as `[8, 4, 1038240]`, multiplied by the weights broadcast over the batch axis, and summed
  over the stencil axis.  Every weakly fair execution terminates with each buffer at the fold of these operations over
  the launch contents; the result buffer is then `refOut` of the three arguments, where the selection is the chain of
  `Cert.Take` at `N = 4 · 1038240` positions.  The fold is read a stretch at a time — the flattening, the selection (itself
  in four stretches), the weighted sum — each stretch from arbitrary buffer contents.
-/
import proofs.«178209_j9251359556349_2_alg».proof.Proof.Gen.ReferenceIdeal
import proofs.«178209_j9251359556349_2_alg».proof.Proof.Take
import Idealize.ShloMosaic.Lib.StableHlo.Run
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The flattening of the positions. -/
abbrev opsFlat : List (HloOp τ sig (Elt F)) :=
  [ reshape main_arg2 main_v0 rfl shapeCasts_S4x1038240_S4152960 ]

/-- The selection's twenty-three operations (`_take`'s body, `_where`'s inside it). -/
abbrev opsTake : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4152960, .i32⟩) (broadcastInDim S4152960 ![] bcast_S_S4152960),
    StableHlo.TRef.binary (.of main_v0 : StableHlo.TRef sig ⟨S4152960, .i32⟩) (.of main_call0_v0 : StableHlo.TRef sig ⟨S4152960, .i32⟩) (.of main_call0_v1 : StableHlo.TRef sig ⟨S4152960, .i1⟩) (cmpi .slt),
    StableHlo.TRef.nullary (.of main_call0_c_0 : StableHlo.TRef sig ⟨S_, .i32⟩) (constantI S_ 32 3145728#32),
    StableHlo.TRef.unary (.of main_call0_c_0 : StableHlo.TRef sig ⟨S_, .i32⟩) (.of main_call0_v2 : StableHlo.TRef sig ⟨S4152960, .i32⟩) (broadcastInDim S4152960 ![] bcast_S_S4152960),
    StableHlo.TRef.binary (.of main_v0 : StableHlo.TRef sig ⟨S4152960, .i32⟩) (.of main_call0_v2 : StableHlo.TRef sig ⟨S4152960, .i32⟩) (.of main_call0_v3 : StableHlo.TRef sig ⟨S4152960, .i32⟩) addi,
    StableHlo.TRef.ternary (.of main_call0_v1 : StableHlo.TRef sig ⟨S4152960, .i1⟩) (.of main_call0_v3 : StableHlo.TRef sig ⟨S4152960, .i32⟩) (.of main_v0 : StableHlo.TRef sig ⟨S4152960, .i32⟩) (.of main_call0_v4 : StableHlo.TRef sig ⟨S4152960, .i32⟩) select,
    StableHlo.TRef.unary main_call0_call0.v0 (.of main_call0_v5 : StableHlo.TRef sig ⟨S4152960x1, .i32⟩) (broadcastInDim S4152960x1 ![0] bcast_S4152960_S4152960x1_0),
    StableHlo.TRef.nullary (.of main_call0_c_1 : StableHlo.TRef sig ⟨S1, .i32⟩) (constantI S1 32 3145727#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4152960x1, .i32⟩) (broadcastInDim S4152960x1 ![] bcast_S_S4152960x1),
    StableHlo.TRef.binary (.of main_call0_v5 : StableHlo.TRef sig ⟨S4152960x1, .i32⟩) (.of main_call0_v6 : StableHlo.TRef sig ⟨S4152960x1, .i32⟩) (.of main_call0_v7 : StableHlo.TRef sig ⟨S4152960x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S4152960x1, .i32⟩) (broadcastInDim S4152960x1 ![0, 1] bcast_S1x1_S4152960x1_0_1),
    StableHlo.TRef.binary (.of main_call0_v5 : StableHlo.TRef sig ⟨S4152960x1, .i32⟩) (.of main_call0_v9 : StableHlo.TRef sig ⟨S4152960x1, .i32⟩) (.of main_call0_v10 : StableHlo.TRef sig ⟨S4152960x1, .i1⟩) (cmpi .sle),
    StableHlo.TRef.binary (.of main_call0_v7 : StableHlo.TRef sig ⟨S4152960x1, .i1⟩) (.of main_call0_v10 : StableHlo.TRef sig ⟨S4152960x1, .i1⟩) (.of main_call0_v11 : StableHlo.TRef sig ⟨S4152960x1, .i1⟩) andi,
    StableHlo.TRef.nullary (.of main_call0_c_3 : StableHlo.TRef sig ⟨S_, .i1⟩) (constantI S_ 1 1#1),
    StableHlo.TRef.binary (.of main_call0_v11 : StableHlo.TRef sig ⟨S4152960x1, .i1⟩) (.of main_call0_c_3 : StableHlo.TRef sig ⟨S_, .i1⟩) (.of main_call0_v12 : StableHlo.TRef sig ⟨S4152960, .i1⟩) (fun x v => Host.reduce IntOp.andi x v reducesTo_S4152960x1_S4152960_d1 h_S_),
    StableHlo.TRef.binary (.of main_arg0 : StableHlo.TRef sig ⟨S8x3145728, .f32⟩) (.of main_call0_v5 : StableHlo.TRef sig ⟨S4152960x1, .i32⟩) (.of main_call0_v13 : StableHlo.TRef sig ⟨S8x4152960, .f32⟩) (fun x i => Host.gather gather_S8x3145728_S4152960x1_S8x4152960_0_1_n_n_1_1_81 x i),
    StableHlo.TRef.unary (.of main_call0_v12 : StableHlo.TRef sig ⟨S4152960, .i1⟩) (.of main_call0_v14 : StableHlo.TRef sig ⟨S8x4152960, .i1⟩) (broadcastInDim S8x4152960 ![1] bcast_S4152960_S8x4152960_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S8x4152960, .f32⟩) (broadcastInDim S8x4152960 ![] bcast_S_S8x4152960),
    StableHlo.TRef.ternary (.of main_call0_v14 : StableHlo.TRef sig ⟨S8x4152960, .i1⟩) (.of main_call0_v13 : StableHlo.TRef sig ⟨S8x4152960, .f32⟩) (.of main_call0_v15 : StableHlo.TRef sig ⟨S8x4152960, .f32⟩) (.of main_v1 : StableHlo.TRef sig ⟨S8x4152960, .f32⟩) select ]

/-- The weighted sum over the stencil axis. -/
abbrev opsTail : List (HloOp τ sig (Elt F)) :=
  [ reshape main_v1 main_v2 rfl shapeCasts_S8x4152960_S8x4x1038240,
    unary main_arg1 main_v3 (broadcastInDim S1x4x1038240 ![1, 2] bcast_S4x1038240_S1x4x1038240_1_2 : (⟨S4x1038240, .f32⟩ : BufTy).Contents (Elt F) → (⟨S1x4x1038240, .f32⟩ : BufTy).Contents (Elt F)),
    unary main_v3 main_v4 (broadcastInDim S8x4x1038240 ![0, 1, 2] bcast_S1x4x1038240_S8x4x1038240_0_1_2 : (⟨S1x4x1038240, .f32⟩ : BufTy).Contents (Elt F) → (⟨S8x4x1038240, .f32⟩ : BufTy).Contents (Elt F)),
    binary main_v2 main_v4 main_v5 (mulf : (⟨S8x4x1038240, .f32⟩ : BufTy).Contents (Elt F) → (⟨S8x4x1038240, .f32⟩ : BufTy).Contents (Elt F) → (⟨S8x4x1038240, .f32⟩ : BufTy).Contents (Elt F)),
    nullary main_cst (constant S_ .f32 0x00000000#32),
    binary main_v5 main_cst main_v6 ((fun x v => Host.reduceAdd x v reducesTo_S8x4x1038240_S8x1038240_d1 h_S_) : (⟨S8x4x1038240, .f32⟩ : BufTy).Contents (Elt F) → (⟨S_, .f32⟩ : BufTy).Contents (Elt F) → (⟨S8x1038240, .f32⟩ : BufTy).Contents (Elt F)) ]

/-- @main's thirty operations in order. -/
abbrev ops : List (HloOp τ sig (Elt F)) := opsFlat ++ (opsTake ++ opsTail)

set_option maxRecDepth 1024 in
/-- @main is that straight line: the outlined functions unfolded at their calls, sequencing reassociated. -/
theorem main_eq (c : Dev nD) : main (F := F) c = seq ops := by
  simp only [main, fn_take.body, fn_where.body, ops, opsFlat, opsTake, opsTail, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., unary_bufs_sub .., binary_bufs_sub .., nullary_bufs_sub .., binary_bufs_sub ..⟩

/-- The selection chain's shape relations at the reference's `4 · 1038240` positions. -/
theorem takeFacts : Cert.Take.Facts 4152960 where
  bcast_S_SN := bcast_S_S4152960
  bcast_SN_SNx1_0 := bcast_S4152960_S4152960x1_0
  bcast_S_SNx1 := bcast_S_S4152960x1
  bcast_S1_S1x1_1 := bcast_S1_S1x1_1
  bcast_S1x1_SNx1_0_1 := bcast_S1x1_S4152960x1_0_1
  reducesTo_SNx1_SN_d1 := reducesTo_S4152960x1_S4152960_d1
  reduces_SNx1_SN_d1 := by decide
  h_S_ := h_S_
  bcast_SN_S8xN_1 := bcast_S4152960_S8x4152960_1
  bcast_S_S8xN := bcast_S_S8x4152960
  gather_wf := gather_S8x3145728_S4152960x1_S8x4152960_0_1_n_n_1_1_81_wf

/-- The reference's result as one function of its three arguments. -/
def refOut (x : FVec F S8x3145728 .f32) (w : FVec F S4x1038240 .f32) (pix : IVec S4x1038240 32) : FVec F S8x1038240 .f32 :=
  Host.reduceAdd
    (mulf (shapeCast S8x4x1038240
        (Cert.Take.takeFn takeFacts x (constant S_ .f32 0x7FC00000#32) (shapeCast S4152960 pix shapeCasts_S4x1038240_S4152960))
        shapeCasts_S8x4152960_S8x4x1038240)
      (broadcastInDim S8x4x1038240 ![0, 1, 2] bcast_S1x4x1038240_S8x4x1038240_0_1_2
        (broadcastInDim S1x4x1038240 ![1, 2] bcast_S4x1038240_S1x4x1038240_1_2 w)))
    (constant S_ .f32 0x00000000#32) reducesTo_S8x4x1038240_S8x1038240_d1 h_S_

/-! ## The selection, a stretch at a time

The selection's twenty-three operations read as four stretches — the wrapped positions as a column of start indices, the
in-range mask, the gather, the select against the fill value — each stated from ANY contents `W` of the buffers, so that
no stretch's statement carries the earlier ones' terms. -/

/-- The wrapped positions as a column of start indices. -/
abbrev opsIdx : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S4152960, .i32⟩) (broadcastInDim S4152960 ![] bcast_S_S4152960),
    StableHlo.TRef.binary (.of main_v0 : StableHlo.TRef sig ⟨S4152960, .i32⟩) (.of main_call0_v0 : StableHlo.TRef sig ⟨S4152960, .i32⟩) (.of main_call0_v1 : StableHlo.TRef sig ⟨S4152960, .i1⟩) (cmpi .slt),
    StableHlo.TRef.nullary (.of main_call0_c_0 : StableHlo.TRef sig ⟨S_, .i32⟩) (constantI S_ 32 3145728#32),
    StableHlo.TRef.unary (.of main_call0_c_0 : StableHlo.TRef sig ⟨S_, .i32⟩) (.of main_call0_v2 : StableHlo.TRef sig ⟨S4152960, .i32⟩) (broadcastInDim S4152960 ![] bcast_S_S4152960),
    StableHlo.TRef.binary (.of main_v0 : StableHlo.TRef sig ⟨S4152960, .i32⟩) (.of main_call0_v2 : StableHlo.TRef sig ⟨S4152960, .i32⟩) (.of main_call0_v3 : StableHlo.TRef sig ⟨S4152960, .i32⟩) addi,
    StableHlo.TRef.ternary (.of main_call0_v1 : StableHlo.TRef sig ⟨S4152960, .i1⟩) (.of main_call0_v3 : StableHlo.TRef sig ⟨S4152960, .i32⟩) (.of main_v0 : StableHlo.TRef sig ⟨S4152960, .i32⟩) (.of main_call0_v4 : StableHlo.TRef sig ⟨S4152960, .i32⟩) select,
    StableHlo.TRef.unary main_call0_call0.v0 (.of main_call0_v5 : StableHlo.TRef sig ⟨S4152960x1, .i32⟩) (broadcastInDim S4152960x1 ![0] bcast_S4152960_S4152960x1_0) ]
/-- The in-range mask. -/
abbrev opsMask : List (HloOp τ sig (Elt F)) :=
  [ StableHlo.TRef.nullary (.of main_call0_c_1 : StableHlo.TRef sig ⟨S1, .i32⟩) (constantI S1 32 3145727#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S4152960x1, .i32⟩) (broadcastInDim S4152960x1 ![] bcast_S_S4152960x1),
    StableHlo.TRef.binary (.of main_call0_v5 : StableHlo.TRef sig ⟨S4152960x1, .i32⟩) (.of main_call0_v6 : StableHlo.TRef sig ⟨S4152960x1, .i32⟩) (.of main_call0_v7 : StableHlo.TRef sig ⟨S4152960x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S4152960x1, .i32⟩) (broadcastInDim S4152960x1 ![0, 1] bcast_S1x1_S4152960x1_0_1),
    StableHlo.TRef.binary (.of main_call0_v5 : StableHlo.TRef sig ⟨S4152960x1, .i32⟩) (.of main_call0_v9 : StableHlo.TRef sig ⟨S4152960x1, .i32⟩) (.of main_call0_v10 : StableHlo.TRef sig ⟨S4152960x1, .i1⟩) (cmpi .sle),
    StableHlo.TRef.binary (.of main_call0_v7 : StableHlo.TRef sig ⟨S4152960x1, .i1⟩) (.of main_call0_v10 : StableHlo.TRef sig ⟨S4152960x1, .i1⟩) (.of main_call0_v11 : StableHlo.TRef sig ⟨S4152960x1, .i1⟩) andi,
    StableHlo.TRef.nullary (.of main_call0_c_3 : StableHlo.TRef sig ⟨S_, .i1⟩) (constantI S_ 1 1#1),
    StableHlo.TRef.binary (.of main_call0_v11 : StableHlo.TRef sig ⟨S4152960x1, .i1⟩) (.of main_call0_c_3 : StableHlo.TRef sig ⟨S_, .i1⟩) (.of main_call0_v12 : StableHlo.TRef sig ⟨S4152960, .i1⟩) (fun x v => Host.reduce IntOp.andi x v reducesTo_S4152960x1_S4152960_d1 h_S_) ]
/-- The gather. -/
abbrev opsGather : List (HloOp τ sig (Elt F)) :=
  [ StableHlo.TRef.binary (.of main_arg0 : StableHlo.TRef sig ⟨S8x3145728, .f32⟩) (.of main_call0_v5 : StableHlo.TRef sig ⟨S4152960x1, .i32⟩) (.of main_call0_v13 : StableHlo.TRef sig ⟨S8x4152960, .f32⟩) (fun x i => Host.gather gather_S8x3145728_S4152960x1_S8x4152960_0_1_n_n_1_1_81 x i) ]
/-- The select against the fill value. -/
abbrev opsSelect : List (HloOp τ sig (Elt F)) :=
  [ StableHlo.TRef.unary (.of main_call0_v12 : StableHlo.TRef sig ⟨S4152960, .i1⟩) (.of main_call0_v14 : StableHlo.TRef sig ⟨S8x4152960, .i1⟩) (broadcastInDim S8x4152960 ![1] bcast_S4152960_S8x4152960_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S8x4152960, .f32⟩) (broadcastInDim S8x4152960 ![] bcast_S_S8x4152960),
    StableHlo.TRef.ternary (.of main_call0_v14 : StableHlo.TRef sig ⟨S8x4152960, .i1⟩) (.of main_call0_v13 : StableHlo.TRef sig ⟨S8x4152960, .f32⟩) (.of main_call0_v15 : StableHlo.TRef sig ⟨S8x4152960, .f32⟩) (.of main_v1 : StableHlo.TRef sig ⟨S8x4152960, .f32⟩) select ]

theorem take_split : (opsTake : List (HloOp τ sig (Elt F))) = opsIdx ++ (opsMask ++ (opsGather ++ opsSelect)) := rfl

variable (W : Valuation τ sig (Elt F))

theorem idx_col : after opsIdx W (main_call0_v5 : DevRef τ sig) = Cert.Take.idxCol takeFacts (W (main_v0 : DevRef τ sig)) := by
  after_results
  rfl
theorem idx_arg0 : after opsIdx W (main_arg0 : DevRef τ sig) = W (main_arg0 : DevRef τ sig) := by
  after_results
attribute [local irreducible] Host.reduce in
theorem mask_row : after opsMask W (main_call0_v12 : DevRef τ sig) = Cert.Take.maskRow takeFacts (W (main_call0_v5 : DevRef τ sig)) := by
  after_results
  rfl
theorem mask_col : after opsMask W (main_call0_v5 : DevRef τ sig) = W (main_call0_v5 : DevRef τ sig) := by
  after_results
theorem mask_arg0 : after opsMask W (main_arg0 : DevRef τ sig) = W (main_arg0 : DevRef τ sig) := by
  after_results
attribute [local irreducible] Host.gather in
theorem gather_cols : after opsGather W (main_call0_v13 : DevRef τ sig)
    = Host.gather (Cert.Take.colDims 4152960 takeFacts.gather_wf) (W (main_arg0 : DevRef τ sig)) (W (main_call0_v5 : DevRef τ sig)) := by
  after_results
  rfl
theorem gather_mask : after opsGather W (main_call0_v12 : DevRef τ sig) = W (main_call0_v12 : DevRef τ sig) := by
  after_results
theorem select_out : after opsSelect W (main_v1 : DevRef τ sig)
    = select (broadcastInDim (Cert.Take.S8xN 4152960) ![1] takeFacts.bcast_SN_S8xN_1 (W (main_call0_v12 : DevRef τ sig)))
        (W (main_call0_v13 : DevRef τ sig))
        (broadcastInDim (Cert.Take.S8xN 4152960) ![] takeFacts.bcast_S_S8xN (constant S_ .f32 0x7FC00000#32)) := by
  after_results
  rfl

/-- The twenty-three operations together: the selected columns are `Cert.Take.takeFn` of the matrix and the flat positions. -/
theorem take_out : after (opsTake : List (HloOp τ sig (Elt F))) W (main_v1 : DevRef τ sig)
    = Cert.Take.takeFn takeFacts (W (main_arg0 : DevRef τ sig)) (constant S_ .f32 0x7FC00000#32) (W (main_v0 : DevRef τ sig)) := by
  rw [take_split, StableHlo.after_append, StableHlo.after_append, StableHlo.after_append, select_out, gather_mask, gather_cols,
    mask_row, mask_col, mask_arg0, idx_col, idx_arg0]
  rfl

/-! ## Around the selection -/

theorem take_arg1 : after (opsTake : List (HloOp τ sig (Elt F))) W (main_arg1 : DevRef τ sig) = W (main_arg1 : DevRef τ sig) := by
  after_results
theorem flat_out : after opsFlat W (main_v0 : DevRef τ sig) = shapeCast S4152960 (W (main_arg2 : DevRef τ sig)) shapeCasts_S4x1038240_S4152960 := by
  after_results
  rfl
theorem flat_arg0 : after opsFlat W (main_arg0 : DevRef τ sig) = W (main_arg0 : DevRef τ sig) := by
  after_results
theorem flat_arg1 : after opsFlat W (main_arg1 : DevRef τ sig) = W (main_arg1 : DevRef τ sig) := by
  after_results
theorem tail_out : after opsTail W (main_v6 : DevRef τ sig)
    = Host.reduceAdd
        (mulf (shapeCast S8x4x1038240 (W (main_v1 : DevRef τ sig)) shapeCasts_S8x4152960_S8x4x1038240)
          (broadcastInDim S8x4x1038240 ![0, 1, 2] bcast_S1x4x1038240_S8x4x1038240_0_1_2
            (broadcastInDim S1x4x1038240 ![1, 2] bcast_S4x1038240_S1x4x1038240_1_2 (W (main_arg1 : DevRef τ sig)))))
        (constant S_ .f32 0x00000000#32) reducesTo_S8x4x1038240_S8x1038240_d1 h_S_ := by
  after_results
  rfl

/-- The fold at the result buffer is `refOut` of the arguments' contents. -/
theorem out_eq (V : Valuation τ sig (Elt F)) :
    after ops V (main_v6 : DevRef τ sig)
      = refOut (V (main_arg0 : DevRef τ sig)) (V (main_arg1 : DevRef τ sig)) (V (main_arg2 : DevRef τ sig)) := by
  rw [StableHlo.after_append, StableHlo.after_append, tail_out, take_out, take_arg1, flat_out, flat_arg0, flat_arg1]
  rfl

theorem arg0_eq (V : Valuation τ sig (Elt F)) : after ops V (main_arg0 : DevRef τ sig) = V (main_arg0 : DevRef τ sig) := by
  simp only [ops, opsFlat, opsTake, opsTail, List.cons_append, List.nil_append, after_cons, after_nil]
  rfl
theorem arg1_eq (V : Valuation τ sig (Elt F)) : after ops V (main_arg1 : DevRef τ sig) = V (main_arg1 : DevRef τ sig) := by
  simp only [ops, opsFlat, opsTake, opsTail, List.cons_append, List.nil_append, after_cons, after_nil]
  rfl
theorem arg2_eq (V : Valuation τ sig (Elt F)) : after ops V (main_arg2 : DevRef τ sig) = V (main_arg2 : DevRef τ sig) := by
  simp only [ops, opsFlat, opsTake, opsTail, List.cons_append, List.nil_append, after_cons, after_nil]
  rfl

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.Run

end
-- ==== Proof.RefValue.lean ====
/-
  The reference's result is the weighted stencil sum.

  Read at `(b, p)`: the host's sum over the stencil axis of `[8, 4, 1038240]` is `0 +` the sum over `k` of the product at
  `(b, k, p)`; the selected columns viewed as `[8, 4, 1038240]` are, there, the selection at flat position
  `k · 1038240 + p`, which is the position `pix[k, p]`; the weights broadcast over the batch axis are `weight[k, p]`.
-/
import proofs.«178209_j9251359556349_2_alg».proof.Proof.RefRun
import proofs.«178209_j9251359556349_2_alg».proof.Proof.Spec
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The positions flattened, read at `k · 1038240 + p`. -/
theorem flat_apply (pix : IVec S4x1038240 32) (k : Fin 4) (p : Fin 1038240) (n : Fin 4152960) (hn : n.val = k.val * 1038240 + p.val) :
    shapeCast S4152960 pix shapeCasts_S4x1038240_S4152960 (ix1 n) = pix (ix2 k p) := by
  refine shapeCast_apply pix _ (ix1 n) (ix2 k p) ?_
  rw [Shape.rowMajor_val_two, Shape.rowMajor_val_one]
  show k.val * 1038240 + p.val = n.val
  omega

/-- The selected columns viewed as `[8, 4, 1038240]`, read at `(b, k, p)`. -/
theorem sel_apply (x : FVec Ideal S8x3145728 .f32) (pix : IVec S4x1038240 32) (b : Fin 8) (k : Fin 4) (p : Fin 1038240) :
    shapeCast S8x4x1038240
        (Cert.Take.takeFn Run.takeFacts x (constant (F := Ideal) S_ .f32 0x7FC00000#32) (shapeCast S4152960 pix shapeCasts_S4x1038240_S4152960))
        shapeCasts_S8x4152960_S8x4x1038240 (ix3 b k p)
      = Cert.Take.takeAt x Cert.Spec.fill b (pix (ix2 k p)) := by
  have hn : k.val * 1038240 + p.val < 4152960 := by have := k.isLt; have := p.isLt; omega
  refine (shapeCast_apply _ shapeCasts_S8x4152960_S8x4x1038240 (ix3 b k p) (ix2 b (⟨k.val * 1038240 + p.val, hn⟩ : Fin 4152960)) ?_).trans ?_
  · rw [Shape.rowMajor_val_two, Shape.rowMajor_val_three]
    show b.val * 4152960 + (k.val * 1038240 + p.val) = (b.val * 4 + k.val) * 1038240 + p.val
    omega
  · rw [Cert.Take.takeFn_apply, flat_apply pix k p _ rfl]
    rfl

/-- The weights broadcast over the batch axis, read at `(b, k, p)`. -/
theorem wgt_apply (w : FVec Ideal S4x1038240 .f32) (b : Fin 8) (k : Fin 4) (p : Fin 1038240) :
    broadcastInDim S8x4x1038240 ![0, 1, 2] bcast_S1x4x1038240_S8x4x1038240_0_1_2
        (broadcastInDim S1x4x1038240 ![1, 2] bcast_S4x1038240_S1x4x1038240_1_2 w) (ix3 b k p) = w (ix2 k p) := by
  refine (broadcastInDim_apply _ bcast_S1x4x1038240_S8x4x1038240_0_1_2 _ (ix3 b k p) (ix3 (0 : Fin 1) k p) ?_).trans ?_
  · intro a
    match a with
    | ⟨0, _⟩ => rfl
    | ⟨1, _⟩ => rfl
    | ⟨2, _⟩ => rfl
  · refine broadcastInDim_apply _ bcast_S4x1038240_S1x4x1038240_1_2 w (ix3 (0 : Fin 1) k p) (ix2 k p) ?_
    intro a
    match a with
    | ⟨0, _⟩ => rfl
    | ⟨1, _⟩ => rfl

/-- THE REFERENCE IS THE WEIGHTED STENCIL SUM. -/
theorem refOut_eq (x : FVec Ideal S8x3145728 .f32) (w : FVec Ideal S4x1038240 .f32) (pix : IVec S4x1038240 32) :
    Run.refOut (F := Ideal) x w pix = Cert.Spec.weighted x w pix := by
  funext j
  obtain ⟨b, p, rfl⟩ : ∃ (b : Fin 8) (p : Fin 1038240), j = ix2 b p := ⟨j 0, j 1, eq_ix2 j⟩
  rw [Cert.Spec.weighted_apply]
  unfold Run.refOut
  have hr : S8x4x1038240.Reduces [1] S8x1038240 := by decide
  refine (Ideal.hostReduceAdd_single reducesTo_S8x4x1038240_S8x1038240_d1 hr _ _ (ix2 b p)).trans ?_
  have h0 : constant (F := Ideal) S_ .f32 0x00000000#32 (Shape.Idx.first h_S_) = 0 := Ideal.ofBits_zero_f32
  rw [h0, zero_add]
  show (∑ k : Fin 4, _) = ∑ k : Fin 4, _
  refine Finset.sum_congr rfl fun (k : Fin 4) _ => ?_
  have hl : hr.lift (ix2 b p) k = ix3 b k p := by
    funext c
    match c with
    | ⟨0, _⟩ => rfl
    | ⟨1, _⟩ => rfl
    | ⟨2, _⟩ => rfl
  rw [hl, mulf_apply, sel_apply, wgt_apply]
  rfl

end Cert.ReferenceIdeal.RefValue

end
-- ==== Proof.lean ====
/-
  The certificate of the weighted stencil sum `out[b, p] = Σ_k x[b, pix[k, p]] · weight[k, p]` (a bilinear regridding:
  `B = 8` fields on `3145728` source cells, `K = 4` stencil points, `1038240` target cells).

  The kernel's program pads positions and weights to 32 whole tiles of `32768` columns, selects the columns of `x` on the
  host (`jnp.take`), multiplies by the weights and sums over the stencil axis tile by tile in one pipelined region, and
  drops the padded columns; the reference does the same selection unpadded and one multiply and sum over whole arrays.
  On the extended reals both results are, element by element, the same finite sum of products (`Cert.Spec.weighted`):
  the selection of a column depends on its own position alone (`Cert.Take.takeFn_apply`), a tile of the region's result
  is the sum at the tile's own columns and the tiles cover the array (`Cert.KernelIdeal.Tiles.final`), the padded columns
  never reach the result (`Cert.KernelIdeal.Result.out_eq`), and the host's sum from `0` is the same sum
  (`Cert.ReferenceIdeal.RefValue.refOut_eq`).  No law beyond `0 + s = s` is used, so the precondition is never opened.
  The three frames are the generated ones (the reference's: its run with the result dropped); the ideal pass rewrote
  nothing, so the idealization claim is `True`.
-/
import proofs.«178209_j9251359556349_2_alg».proof.Defs
import proofs.«178209_j9251359556349_2_alg».proof.Proof.Gen.Kernel
import proofs.«178209_j9251359556349_2_alg».proof.Proof.Gen.Kernel.Frame
import proofs.«178209_j9251359556349_2_alg».proof.Proof.Gen.KernelIdeal
import proofs.«178209_j9251359556349_2_alg».proof.Proof.Gen.KernelIdeal.Frame
import proofs.«178209_j9251359556349_2_alg».proof.Proof.Gen.ReferenceIdeal
import proofs.«178209_j9251359556349_2_alg».proof.Proof.Gen.Pre_finite_inputs
import proofs.«178209_j9251359556349_2_alg».proof.Proof.KRun
import proofs.«178209_j9251359556349_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Run.run (F := Ideal) m ρ)

theorem preserves : Cert.preserves_Kernel_KernelIdeal := trivial

/-- From memories agreeing on the arguments both idealized programs end with the weighted stencil sum of the
    arguments in their result buffers. -/
theorem algebraic : Cert.algebraic_KernelIdeal_ReferenceIdeal := by
  intro m ρ m' ρ' _ hagree
  refine ⟨fun c => Cert.Spec.weighted
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2]
  exact Cert.ReferenceIdeal.RefValue.refOut_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
